-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.sign_bit.Statement Cert.KernelIdeal.S256x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024 : Shape := ⟨2, ![64, 1024]⟩
abbrev S64x256 : Shape := ⟨2, ![64, 256]⟩
abbrev S4096x1024 : Shape := ⟨2, ![4096, 1024]⟩
abbrev S256x4096 : Shape := ⟨2, ![256, 4096]⟩
abbrev S4096 : Shape := ⟨1, ![4096]⟩
abbrev S256 : Shape := ⟨1, ![256]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S256x4096 : S_.BroadcastsInDim S256x4096 (![] : Fin 0 → Fin S256x4096.rank)
  reducesTo_S256x4096_S_d0_1 : S256x4096.ReducesTo [0, 1] S_
  bcast_S_S4096 : S_.BroadcastsInDim S4096 (![] : Fin 0 → Fin S4096.rank)
  reducesTo_S4096_S_d0 : S4096.ReducesTo [0] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S64x1024 .f32) (main_arg1 : IVec S64x256 32) (main_arg2 : FVec F S4096x1024 .f32) (main_arg3 : FVec F S256x4096 .f32) (main_arg4 : FVec F S4096 .f32) (main_arg5 : FVec F S256 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S256x4096 .f32 := Host.absf main_arg3
  let main_cst_2 : FVec F S_ .f32 := constant S_ .f32 0x7F800000#32
  let main_v10 : FVec F S256x4096 .f32 := broadcastInDim S256x4096 ![] bcast_S_S256x4096 main_cst_2
  let main_v11 : IVec S256x4096 1 := cmpf .olt main_v9 main_v10
  let main_c_3 : IVec S_ 1 := constantI S_ 1 1#1
  let main_v12 : IVec S_ 1 := (fun x v => Host.reduce IntOp.andi x v reducesTo_S256x4096_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_v13 main_v16
-- ==== Kernel.lean ====
abbrev S64x1024 : Shape := ⟨2, ![64, 1024]⟩
abbrev S64x256 : Shape := ⟨2, ![64, 256]⟩
abbrev S4096x1024 : Shape := ⟨2, ![4096, 1024]⟩
abbrev S256x4096 : Shape := ⟨2, ![256, 4096]⟩
abbrev S4096 : Shape := ⟨1, ![4096]⟩
abbrev S256 : Shape := ⟨1, ![256]⟩
abbrev S64x256x4096 : Shape := ⟨3, ![64, 256, 4096]⟩
abbrev S256x128 : Shape := ⟨2, ![256, 128]⟩
abbrev S128x1024 : Shape := ⟨2, ![128, 1024]⟩
abbrev S64x256x128 : Shape := ⟨3, ![64, 256, 128]⟩
abbrev S128 : Shape := ⟨1, ![128]⟩
abbrev S1x128 : Shape := ⟨2, ![1, 128]⟩
abbrev S64x256x1 : Shape := ⟨3, ![64, 256, 1]⟩
abbrev S1x256x128 : Shape := ⟨3, ![1, 256, 128]⟩
abbrev S_ : Shape := ⟨0, ![]⟩
abbrev S1x256 : Shape := ⟨2, ![1, 256]⟩

abbrev nBuf : Space → Nat
  | .hbm => 16
  | .vmem => 7
  | .smem => 0
  | _ => 0

abbrev bufTy : (tb : Table) → Fin (tcTables nBuf tb) → BufTy
  | .hbm, ⟨0, _⟩ => ⟨S64x1024, .f32⟩
  | .hbm, ⟨1, _⟩ => ⟨S64x256, .i32⟩
  | .hbm, ⟨2, _⟩ => ⟨S4096x1024, .f32⟩
  | .hbm, ⟨3, _⟩ => ⟨S256x4096, .f32⟩
  | .hbm, ⟨4, _⟩ => ⟨S4096, .f32⟩
  | .hbm, ⟨5, _⟩ => ⟨S256, .f32⟩
  | .hbm, ⟨6, _⟩ => ⟨S64x256, .f32⟩
  | .hbm, ⟨7, _⟩ => ⟨S64x256x4096, .f32⟩
  | .hbm, ⟨8, _⟩ => ⟨S_, .f32⟩
  | .hbm, ⟨9, _⟩ => ⟨S256x4096, .f32⟩
  | .hbm, ⟨10, _⟩ => ⟨S256x4096, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S1x256, .f32⟩
  | .hbm, ⟨15, _⟩ => ⟨S64x256, .f32⟩
  | .local _ .vmem, ⟨0, _⟩ => ⟨S64x256, .f32⟩
  | .local _ .vmem, ⟨1, _⟩ => ⟨S256x128, .f32⟩
  | .local _ .vmem, ⟨2, _⟩ => ⟨S256x128, .f32⟩
  | .local _ .vmem, ⟨3, _⟩ => ⟨S128x1024, .f32⟩
  | .local _ .vmem, ⟨4, _⟩ => ⟨S128x1024, .f32⟩
  | .local _ .vmem, ⟨5, _⟩ => ⟨S64x256x128, .f32⟩
  | .local _ .vmem, ⟨6, _⟩ => ⟨S64x256x128, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x128_S256x128_0_0 : ∀ a, (![0, 0] : Fin 2 → Nat) a + S256x128.size a ≤ S256x128.size a
  h_S256x128 : 0 < S256x128.numel
  inb_S128x1024_S128x1024_0_0 : ∀ a, (![0, 0] : Fin 2 → Nat) a + S128x1024.size a ≤ S128x1024.size a
  h_S128x1024 : 0 < S128x1024.numel
  reduces_S128x1024_S128 : S128x1024.Reduces [1] S128
  shapeCasts_S128_S1x128 : S128.ShapeCasts S1x128
  broadcasts_S1x128_S256x128 : S1x128.Broadcasts S256x128
  shapeCasts_S64x256_S64x256x1 : S64x256.ShapeCasts S64x256x1
  shapeCasts_S256x128_S1x256x128 : S256x128.ShapeCasts S1x256x128
  broadcasts_S64x256x1_S64x256x128 : S64x256x1.Broadcasts S64x256x128
  broadcasts_S1x256x128_S64x256x128 : S1x256x128.Broadcasts S64x256x128
  inb_S64x256x128_S64x256x128_0_0_0 : ∀ a, (![0, 0, 0] : Fin 3 → Nat) a + S64x256x128.size a ≤ S64x256x128.size a
  h_S64x256x128 : 0 < S64x256x128.numel
  bcast_S_S256x4096 : S_.BroadcastsInDim S256x4096 (![] : Fin 0 → Fin S256x4096.rank)
  reducesTo_S256x4096_S256_d1 : S256x4096.ReducesTo [1] S256
  h_S_ : 0 < S_.numel
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S64x256.size a
  hwx0_0 : ∀ i : grid0.Coords, EltTy.bits .f32 = 32 ∨ (Rect.block (s := S64x256) S64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x4096.size a
  hwx0_1 : ∀ i : grid0.Coords, EltTy.bits .f32 = 32 ∨ (Rect.block (s := S256x4096) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S4096x1024.size a
  hwx0_2 : ∀ i : grid0.Coords, EltTy.bits .f32 = 32 ∨ (Rect.block (s := S4096x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x256x128.size a ≤ S64x256x4096.size a
  hwx0_3 : ∀ i : grid0.Coords, EltTy.bits .f32 = 32 ∨ (Rect.block (s := S64x256x4096) S64x256x128.size (cc0_transform_3 i) (hinb0_3 i)).WholeWords (EltTy.packing .f32)

variable [Facts₀]

abbrev win0_0 : Pipeline.Window sig grid0 :=
  Pipeline.Window.ofSpec (Memref.whole main_v0) S64x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1024 : Shape := ⟨2, ![64, 1024]⟩
abbrev S64x256 : Shape := ⟨2, ![64, 256]⟩
abbrev S4096x1024 : Shape := ⟨2, ![4096, 1024]⟩
abbrev S256x4096 : Shape := ⟨2, ![256, 4096]⟩
abbrev S4096 : Shape := ⟨1, ![4096]⟩
abbrev S256 : Shape := ⟨1, ![256]⟩
abbrev S_ : Shape := ⟨0, ![]⟩
abbrev S64x256x1 : Shape := ⟨3, ![64, 256, 1]⟩
abbrev S1x256x4096 : Shape := ⟨3, ![1, 256, 4096]⟩
abbrev S64x256x4096 : Shape := ⟨3, ![64, 256, 4096]⟩
abbrev S1x1x4096 : Shape := ⟨3, ![1, 1, 4096]⟩
abbrev S1x256 : Shape := ⟨2, ![1, 256]⟩

abbrev nBuf : Space → Nat
  | .hbm => 32
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x256, .i32⟩
  | .hbm, ⟨2, _⟩ => ⟨S4096x1024, .f32⟩
  | .hbm, ⟨3, _⟩ => ⟨S256x4096, .f32⟩
  | .hbm, ⟨4, _⟩ => ⟨S4096, .f32⟩
  | .hbm, ⟨5, _⟩ => ⟨S256, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S64x256, .f32⟩
  | .hbm, ⟨10, _⟩ => ⟨S64x256x1, .f32⟩
  | .hbm, ⟨11, _⟩ => ⟨S_, .f32⟩
  | .hbm, ⟨12, _⟩ => ⟨S64x256x1, .f32⟩
  | .hbm, ⟨13, _⟩ => ⟨S64x256x1, .f32⟩
  | .hbm, ⟨14, _⟩ => ⟨S256x4096, .f32⟩
  | .hbm, ⟨15, _⟩ => ⟨S1x256x4096, .f32⟩
  | .hbm, ⟨16, _⟩ => ⟨S64x256x4096, .f32⟩
  | .hbm, ⟨17, _⟩ => ⟨S64x256x4096, .f32⟩
  | .hbm, ⟨18, _⟩ => ⟨S64x256x4096, .f32⟩
  | .hbm, ⟨19, _⟩ => ⟨S1x1x4096, .f32⟩
  | .hbm, ⟨20, _⟩ => ⟨S64x256x4096, .f32⟩
  | .hbm, ⟨21, _⟩ => ⟨S64x256x4096, .f32⟩
  | .hbm, ⟨22, _⟩ => ⟨S_, .f32⟩
  | .hbm, ⟨23, _⟩ => ⟨S256x4096, .f32⟩
  | .hbm, ⟨24, _⟩ => ⟨S256x4096, .f32⟩
  | .hbm, ⟨25, _⟩ => ⟨S1x256x4096, .f32⟩
  | .hbm, ⟨26, _⟩ => ⟨S64x256x4096, .f32⟩
  | .hbm, ⟨27, _⟩ => ⟨S_, .f32⟩
  | .hbm, ⟨28, _⟩ => ⟨S64x256, .f32⟩
  | .hbm, ⟨29, _⟩ => ⟨S1x256, .f32⟩
  | .hbm, ⟨30, _⟩ => ⟨S64x256, .f32⟩
  | .hbm, ⟨31, _⟩ => ⟨S64x256, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S64x256_S64x256x1_0_1 : S64x256.BroadcastsInDim S64x256x1 (![0, 1] : Fin 2 → Fin S64x256x1.rank)
  bcast_S_S64x256x1 : S_.BroadcastsInDim S64x256x1 (![] : Fin 0 → Fin S64x256x1.rank)
  bcast_S256x4096_S1x256x4096_1_2 : S256x4096.BroadcastsInDim S1x256x4096 (![1, 2] : Fin 2 → Fin S1x256x4096.rank)
  bcast_S64x256x1_S64x256x4096_0_1_2 : S64x256x1.BroadcastsInDim S64x256x4096 (![0, 1, 2] : Fin 3 → Fin S64x256x4096.rank)
  bcast_S1x256x4096_S64x256x4096_0_1_2 : S1x256x4096.BroadcastsInDim S64x256x4096 (![0, 1, 2] : Fin 3 → Fin S64x256x4096.rank)
  bcast_S4096_S1x1x4096_2 : S4096.BroadcastsInDim S1x1x4096 (![2] : Fin 1 → Fin S1x1x4096.rank)
  bcast_S1x1x4096_S64x256x4096_0_1_2 : S1x1x4096.BroadcastsInDim S64x256x4096 (![0, 1, 2] : Fin 3 → Fin S64x256x4096.rank)
  bcast_S_S256x4096 : S_.BroadcastsInDim S256x4096 (![] : Fin 0 → Fin S256x4096.rank)
  reducesTo_S64x256x4096_S64x256_d2 : S64x256x4096.ReducesTo [2] S64x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)

variable [Facts₀]

class Facts : Prop extends Facts₀ where

variable [Facts]
-- ==== Proof.Spec.lean ====
/-
  The two results as functions of the argument arrays, index by index, on the extended reals.

  Write `c` for the value of the single-precision literal `-0.1` and `n` for that of `4096.0`, `Y` for the
  labels converted to floats, and `‖W1 h‖₁ = ∑ k, |W1 h k|` for the L1 norm of row `h` of `W1`, the absolute value
  being `max x (-x)`. Then

    pert b o h = (c · Y b o) · (sign (W2 o h) · ‖W1 h‖₁)          over [64, 256, 4096],
    out  b o   = (∑ h, W2 o h · n) + bias2 o                      over [64, 256], the same for every b.

  The first product is grouped as the kernel computes it. The reference groups it as
  `((c · Y b o) · sign (W2 o h)) · ‖W1 h‖₁`; the two agree because multiplication of extended reals is
  associative (`pertAt_assoc`), with no finiteness assumption on the inputs.
-/
import Idealize.ShloMosaic.PureOps.Ideal.Laws
import Idealize.ShloMosaic.Lib.ValueIdx

noncomputable section

namespace Cert.Spec

open Idealize.ShloMosaic Idealize.ShloMosaic.ValueIdx

/-- The L1 norm of row `h` of `W1`: the sum over the row of `max x (-x)`. -/
def rowNorm (W1 : (⟨2, ![4096, 1024]⟩ : Shape).Idx → EReal) (h : Fin 4096) : EReal :=
  ∑ k : Fin 1024, max (W1 (ix2 h k)) (-(W1 (ix2 h k)))

/-- The perturbation at `(b, o, h)`. -/
def pertAt (Y : (⟨2, ![64, 256]⟩ : Shape).Idx → EReal) (W2 : (⟨2, ![256, 4096]⟩ : Shape).Idx → EReal)
    (W1 : (⟨2, ![4096, 1024]⟩ : Shape).Idx → EReal) (b : Fin 64) (o : Fin 256) (h : Fin 4096) : EReal :=
  (Ideal.ofBits .f32 0xBDCCCCCD#32 * Y (ix2 b o)) * (Ideal.sign (W2 (ix2 o h)) * rowNorm W1 h)

/-- The perturbation array. -/
def pert (Y : (⟨2, ![64, 256]⟩ : Shape).Idx → EReal) (W2 : (⟨2, ![256, 4096]⟩ : Shape).Idx → EReal)
    (W1 : (⟨2, ![4096, 1024]⟩ : Shape).Idx → EReal) : (⟨3, ![64, 256, 4096]⟩ : Shape).Idx → EReal :=
  fun i => pertAt Y W2 W1 (i 0) (i 1) (i 2)

theorem pert_ix3 (Y : (⟨2, ![64, 256]⟩ : Shape).Idx → EReal) (W2 : (⟨2, ![256, 4096]⟩ : Shape).Idx → EReal)
    (W1 : (⟨2, ![4096, 1024]⟩ : Shape).Idx → EReal) (b : Fin 64) (o : Fin 256) (h : Fin 4096) :
    pert Y W2 W1 (ix3 b o h) = pertAt Y W2 W1 b o h := rfl

/-- The same value with the product grouped from the left: multiplication of extended reals is associative. -/
theorem pertAt_assoc (Y : (⟨2, ![64, 256]⟩ : Shape).Idx → EReal) (W2 : (⟨2, ![256, 4096]⟩ : Shape).Idx → EReal)
    (W1 : (⟨2, ![4096, 1024]⟩ : Shape).Idx → EReal) (b : Fin 64) (o : Fin 256) (h : Fin 4096) :
    ((Ideal.ofBits .f32 0xBDCCCCCD#32 * Y (ix2 b o)) * Ideal.sign (W2 (ix2 o h))) * rowNorm W1 h
      = pertAt Y W2 W1 b o h :=
  mul_assoc _ _ _

/-- The network output at column `o`: the row sum of `W2 · 4096` plus the bias. -/
def outAt (W2 : (⟨2, ![256, 4096]⟩ : Shape).Idx → EReal) (B2 : (⟨1, ![256]⟩ : Shape).Idx → EReal) (o : Fin 256) : EReal :=
  (∑ h : Fin 4096, W2 (ix2 o h) * Ideal.ofBits .f32 0x45800000#32) + B2 (ix1 o)

/-- The network output array: every row `b` holds the same values. -/
def out (W2 : (⟨2, ![256, 4096]⟩ : Shape).Idx → EReal) (B2 : (⟨1, ![256]⟩ : Shape).Idx → EReal) :
    (⟨2, ![64, 256]⟩ : Shape).Idx → EReal :=
  fun i => outAt W2 B2 (i 1)

theorem out_ix2 (W2 : (⟨2, ![256, 4096]⟩ : Shape).Idx → EReal) (B2 : (⟨1, ![256]⟩ : Shape).Idx → EReal)
    (b : Fin 64) (o : Fin 256) : out W2 B2 (ix2 b o) = outAt W2 B2 o := rfl

end Cert.Spec

end
-- ==== Proof.RefSide.lean ====
/-
  The reference's two results are the specification's arrays.

  Read at an index `(b, o, h)`, the reference's perturbation is
  `((c · Y b o) · sign (W2 o h)) · (0 + ∑ k, |W1 h k|)`: each broadcast only renames coordinates, the host's `sign`
  is the sign function of the extended reals, its absolute value is `max x (-x)`, and its row sum starts from the
  zero literal. Re-grouping the product (associativity) gives `pertAt`.
  Read at `(b, o)`, the reference's network output is `(0 + ∑ h, W2 o h · n) + bias2 o`: the summand was broadcast
  over `b` before the sum, which changes no element of it.
-/
import proofs.«123901_j88433376625403_2_alg».proof.Proof.Gen.ReferenceIdeal.Read
import proofs.«123901_j88433376625403_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's perturbation array is `Spec.pert` of the converted labels, `W2` and `W1`. -/
theorem pert_eq (x1 : (⟨S64x256, .i32⟩ : BufTy).Contents (Elt Ideal)) (x2 : (⟨S4096x1024, .f32⟩ : BufTy).Contents (Elt Ideal))
    (x3 : (⟨S256x4096, .f32⟩ : BufTy).Contents (Elt Ideal)) :
    val_main_v13 (F := Ideal) x1 x2 x3 = Cert.Spec.pert (sitofp .f32 x1 : FVec Ideal S64x256 .f32) x3 x2 := by
  funext i
  obtain ⟨b, o, h, rfl⟩ : ∃ (b : Fin 64) (o : Fin 256) (h : Fin 4096), i = ix3 b o h := ⟨i 0, i 1, i 2, eq_ix3 i⟩
  have e1 : idx_main_v3 (idx_main_v8 (ix3 b o h)) = ix2 b o :=
    funext fun a => Fin.ext (by match a with | ⟨0, _⟩ => rfl | ⟨1, _⟩ => rfl)
  have e2 : idx_main_v7 (idx_main_v9 (ix3 b o h)) = ix2 o h :=
    funext fun a => Fin.ext (by match a with | ⟨0, _⟩ => rfl | ⟨1, _⟩ => rfl)
  have e3 : ∀ k : Fin 1024, idx_main_v1 (idx_main_v11 (idx_main_v12 (ix3 b o h))) k = ix2 h k :=
    fun k => funext fun a => Fin.ext (by match a with | ⟨0, _⟩ => rfl | ⟨1, _⟩ => rfl)
  rw [Cert.Spec.pert_ix3, ← Cert.Spec.pertAt_assoc]
  rw [val_main_v13_apply, val_main_v10_apply, val_main_v8_apply, val_main_v5_apply, val_main_v4_apply,
    val_main_cst_0_apply, val_main_v3_apply, val_main_v2_apply, val_main_v9_apply, val_main_v7_apply,
    val_main_v6_apply, val_main_v12_apply, val_main_v11_apply, val_main_v1_apply, val_main_cst_apply]
  simp only [val_main_v0_apply, e1, e2, e3, sitofp_apply, Ideal.ofBits_def, Ideal.mulf_def, Ideal.hostUnary_sign_def,
    Ideal.hostAbsf_def, Ideal.absf_def, Ideal.ofBits_zero_f32, zero_add, Cert.Spec.rowNorm]

/-- The reference's network output array is `Spec.out` of `W2` and the bias. -/
theorem out_eq (x3 : (⟨S256x4096, .f32⟩ : BufTy).Contents (Elt Ideal)) (x5 : (⟨S256, .f32⟩ : BufTy).Contents (Elt Ideal)) :
    val_main_v21 (F := Ideal) x3 x5 = Cert.Spec.out x3 x5 := by
  funext i
  obtain ⟨b, o, rfl⟩ : ∃ (b : Fin 64) (o : Fin 256), i = ix2 b o := ⟨i 0, i 1, eq_ix2 i⟩
  have e1 : ∀ k : Fin 4096, idx_main_v16 (idx_main_v17 (idx_main_v18 (ix2 b o) k)) = ix2 o k :=
    fun k => funext fun a => Fin.ext (by match a with | ⟨0, _⟩ => rfl | ⟨1, _⟩ => rfl)
  have e2 : idx_main_v19 (idx_main_v20 (ix2 b o)) = ix1 o :=
    funext fun a => Fin.ext (by match a with | ⟨0, _⟩ => rfl)
  rw [Cert.Spec.out_ix2, val_main_v21_apply, val_main_v18_apply, val_main_cst_2_apply, val_main_v20_apply,
    val_main_v19_apply]
  simp only [val_main_v17_apply, val_main_v16_apply, val_main_v15_apply, val_main_v14_apply, val_main_cst_1_apply,
    e1, e2, Ideal.ofBits_def, Ideal.mulf_def, Ideal.addf_def, Ideal.ofBits_zero_f32, zero_add, Cert.Spec.outAt]

end Cert.ReferenceIdeal.RefValue

end
-- ==== Proof.LibRank3Layout.lean ====
/-
  Layout operations on rank-3 shapes, read at an index given by its coordinates.

  * A matrix `[a, b]` cast to `[a, b, 1]` (a trailing unit axis added): the element at `(i, j, u)` is the
    matrix's at `(i, j)`; both indices sit at the same row-major position, since the unit coordinate is `0`.
  * An `[a, b, 1]` array broadcast to `[a, b, c]`: the element at `(i, j, k)` is the operand's at `(i, j, 0)`;
    the broadcast copies along the unit axis and keeps the other two coordinates.
  * A `[1, b, c]` array broadcast to `[a, b, c]`: the element at `(i, j, k)` is the operand's one matrix at
    `(j, k)`, whatever the leading coordinate.
-/
import Idealize.ShloMosaic.Lib.ValueLayout

namespace Cert.LibRank3Layout

open Idealize.ShloMosaic Idealize.ShloMosaic.ValueIdx

variable {α : Type}

/-- An `[a, b]` array cast to `[a, b, 1]` reads, at `(i, j, u)`, the operand at `(i, j)`, whatever the unit
    coordinate `u`: the row-major positions are `i * b + j` and `(i * b + j) * 1 + u` with `u = 0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand's one matrix at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibRank3Layout
-- ==== Proof.PayAt.lean ====
/-
  The value the kernel body stores, read at one index of its output block.

  The body holds three blocks: `x0` (all of the converted labels, [64, 256]), `x1` (128 columns of `W2`,
  [256, 128]) and `x2` (128 rows of `W1`, [128, 1024]). At `(b, o, l)` it stores

    (c · x0 b o) · (sign (x1 o l) · ∑ k, |x2 l k|),

  where `c` is the literal `-0.1`. The left factor is the label column `[64, 256, 1]` scaled by `c` and copied
  along the lane axis; the right factor is the matrix `sign x1 · norm` copied along the batch axis, `norm` being the
  row sums of `|x2|` laid out as one row `[1, 128]` and copied down the 256 rows. The body's `sign` is written as
  two selects on comparisons with zero; on the extended reals that term is the sign function.
-/
import proofs.«123901_j88433376625403_2_alg».proof.Proof.Gen.KernelIdeal.Skeleton
import proofs.«123901_j88433376625403_2_alg».proof.Proof.LibRank3Layout
import Idealize.ShloMosaic.PureOps.Ideal.Laws
import Idealize.ShloMosaic.Lib.ValueLayout

noncomputable section

namespace Cert.KernelIdeal.PayValue

open Cert.KernelIdeal Cert.KernelIdeal.Gen Idealize.ShloMosaic Idealize.ShloMosaic.ValueIdx Cert.LibRank3Layout

/-- The index the row reduction inserts: row `l` of the block, column `k`. -/
theorem lift_row (h : S128x1024.Reduces [1] S128) (l : Fin 128) (k : Fin 1024) : h.lift (ix1 l) k = ix2 l k :=
  funext fun a => Fin.ext (by match a with | ⟨0, _⟩ => rfl | ⟨1, _⟩ => rfl)

/-- The body's stored value at `(b, o, l)`. -/
theorem pay_apply (x0 : Vec Ideal S64x256 .f32) (x1 : Vec Ideal S256x128 .f32) (x2 : Vec Ideal S128x1024 .f32)
    (b : Fin 64) (o : Fin 256) (l : Fin 128) :
    k0_pay1 x0 x1 x2 (ix3 b o l)
      = (Ideal.ofBits .f32 0xBDCCCCCD#32 * x0 (ix2 b o))
        * (Ideal.sign (x1 (ix2 o l)) * ∑ k : Fin 1024, max (x2 (ix2 l k)) (-(x2 (ix2 l k)))) := by
  unfold k0_pay1
  refine (mulf_apply _ _ _).trans ?_
  refine congrArg₂ (· * ·) ?_ ?_
  · -- the scaled label column, copied along the lanes
    refine (broadcastTo_ab1_abc_apply _ _ b o l).trans ?_
    refine (mulf_apply _ _ _).trans ?_
    refine congrArg₂ (· * ·) rfl ?_
    refine (shapeCast_ab_ab1_apply _ _ b o 0).trans ?_
    rw [shapeCast_self]
  · -- sign x1 · norm, copied along the batch axis
    refine (broadcastTo_1bc_abc_apply _ _ b o l).trans ?_
    refine (shapeCast_ab_1ab_apply _ _ 0 o l).trans ?_
    refine (mulf_apply _ _ _).trans ?_
    refine congrArg₂ (· * ·) ?_ ?_
    · exact Ideal.jnp_sign_eq_sign_f32 (x1 (ix2 o l))
    · refine (broadcastTo_1b_ab_apply _ _ o l).trans ?_
      refine (shapeCast_a_1a_apply _ _ 0 l).trans ?_
      refine (Ideal.multiReduction_add_single _ _ _ _ _ (ix1 l)).trans ?_
      refine Finset.sum_congr rfl fun k _ => ?_
      exact (congrArg (absf x2) (lift_row _ l k)).trans (Ideal.absf_def _)

end Cert.KernelIdeal.PayValue

end
-- ==== Proof.Blocks.lean ====
/-
  From the blocks the grid points write back to the whole perturbation array.

  The grid has 32 points. At point `t` the kernel holds all of the converted labels, columns `128 t … 128 t + 127` of
  `W2` and rows `128 t … 128 t + 127` of `W1`, and writes back the slab `[:, :, 128 t … 128 t + 127]` of the
  output. Element `(b, o, l)` of that slab is the body's stored value, which is the specification's value at
  `(b, o, 128 t + l)`: it depends on the label `(b, o)`, on `W2` at `(o, 128 t + l)` and on row `128 t + l` of
  `W1`, exactly the elements the three input blocks hold. The 32 slabs tile the lane axis (index `h` lies in slab
  `h / 128`), so after the run the array is the specification's. The labels reach the region already converted to
  floats by the one host operation before it; `W1` and `W2` reach it as launched.
-/
import proofs.«123901_j88433376625403_2_alg».proof.Proof.Gen.KernelIdeal.Frame
import proofs.«123901_j88433376625403_2_alg».proof.Proof.PayAt
import proofs.«123901_j88433376625403_2_alg».proof.Proof.Spec
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.BlockValue

open Cert.KernelIdeal Cert.KernelIdeal.Gen Cert.KernelIdeal.PayValue

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- Where each window's block sits at grid point `t`: the labels' block is the whole array; `W2`'s is column block
    `t`; `W1`'s is row block `t`; the output's is lane block `t`. -/
theorem block_positions : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = t.val :=
  (by decide +kernel : ∀ t : Fin grid0.N, _)

/-- The labels' block at any point is the converted label array. -/
theorem read_labels (c : Dev nD) (t : Fin cfg0.N) (b : Fin 64) (o : Fin 256) :
    (iblk m c 0 t : Vec Ideal S64x256 .f32) (ix2 b o) = (V m c main_v0 : S64x256.Idx → EReal) (ix2 b o) := by
  obtain ⟨e0, e1, -⟩ := block_positions t
  show V m c main_v0 (((cfg0.win 0).blk t).view.emb (ix2 b o)) = V m c main_v0 (ix2 b o)
  refine congrArg (V m c main_v0) (funext fun a => Fin.ext ?_)
  match a with
  | ⟨0, _⟩ => show win0_0.index t (0 : Fin 2) * 64 + 1 * b.val = b.val; omega
  | ⟨1, _⟩ => show win0_0.index t (1 : Fin 2) * 256 + 1 * o.val = o.val; omega

/-- `W2`'s block at point `t` holds columns `128 t + l`. -/
theorem read_w2 (c : Dev nD) (t : Fin cfg0.N) (o : Fin 256) (l : Fin 128) (h : Fin 4096) (hh : h.val = t.val * 128 + l.val) :
    (iblk m c 1 t : Vec Ideal S256x128 .f32) (ix2 o l) = (V m c main_arg3 : S256x4096.Idx → EReal) (ix2 o h) := by
  obtain ⟨-, -, e2, e3, -⟩ := block_positions t
  show V m c main_arg3 (((cfg0.win 1).blk t).view.emb (ix2 o l)) = V m c main_arg3 (ix2 o h)
  refine congrArg (V m c main_arg3) (funext fun a => Fin.ext ?_)
  match a with
  | ⟨0, _⟩ => show win0_1.index t (0 : Fin 2) * 256 + 1 * o.val = o.val; omega
  | ⟨1, _⟩ => show win0_1.index t (1 : Fin 2) * 128 + 1 * l.val = h.val; omega

/-- `W1`'s block at point `t` holds rows `128 t + l`. -/
theorem read_w1 (c : Dev nD) (t : Fin cfg0.N) (l : Fin 128) (k : Fin 1024) (h : Fin 4096) (hh : h.val = t.val * 128 + l.val) :
    (iblk m c 2 t : Vec Ideal S128x1024 .f32) (ix2 l k) = (V m c main_arg2 : S4096x1024.Idx → EReal) (ix2 h k) := by
  obtain ⟨-, -, -, -, e4, e5, -⟩ := block_positions t
  show V m c main_arg2 (((cfg0.win 2).blk t).view.emb (ix2 l k)) = V m c main_arg2 (ix2 h k)
  refine congrArg (V m c main_arg2) (funext fun a => Fin.ext ?_)
  match a with
  | ⟨0, _⟩ => show win0_2.index t (0 : Fin 2) * 128 + 1 * l.val = h.val; omega
  | ⟨1, _⟩ => show win0_2.index t (1 : Fin 2) * 1024 + 1 * k.val = k.val; omega

/-- One element of a written-back slab: if the three blocks hold the arrays' elements at lane block `tv`, the body's
    stored value at block index `y` is the specification's at the array index `i` with the same batch and output
    coordinates and lane `128 tv + y 2`. -/
theorem slab_elt (Y : S64x256.Idx → EReal) (W2 : S256x4096.Idx → EReal) (W1 : S4096x1024.Idx → EReal)
    (x0 : Vec Ideal S64x256 .f32) (x1 : Vec Ideal S256x128 .f32) (x2 : Vec Ideal S128x1024 .f32)
    (y : S64x256x128.Idx) (i : S64x256x4096.Idx) (tv : ℕ)
    (hi0 : (i 0).val = (y 0).val) (hi1 : (i 1).val = (y 1).val) (hi2 : (i 2).val = tv * 128 + (y 2).val)
    (h0 : ∀ (b : Fin 64) (o : Fin 256), x0 (ix2 b o) = Y (ix2 b o))
    (h1 : ∀ (o : Fin 256) (l : Fin 128) (h : Fin 4096), h.val = tv * 128 + l.val → x1 (ix2 o l) = W2 (ix2 o h))
    (h2 : ∀ (l : Fin 128) (k : Fin 1024) (h : Fin 4096), h.val = tv * 128 + l.val → x2 (ix2 l k) = W1 (ix2 h k)) :
    k0_pay1 x0 x1 x2 y = Cert.Spec.pert Y W2 W1 i := by
  obtain ⟨b, o, l, rfl⟩ : ∃ (b : Fin 64) (o : Fin 256) (l : Fin 128), y = ix3 b o l := ⟨y 0, y 1, y 2, eq_ix3 y⟩
  obtain ⟨b', o', h, rfl⟩ : ∃ (b' : Fin 64) (o' : Fin 256) (h : Fin 4096), i = ix3 b' o' h := ⟨i 0, i 1, i 2, eq_ix3 i⟩
  have hb : b' = b := Fin.ext hi0
  have ho : o' = o := Fin.ext hi1
  have hh : h.val = tv * 128 + l.val := hi2
  subst hb ho
  rw [pay_apply, Cert.Spec.pert_ix3, h0 _ _, h1 _ l h hh]
  unfold Cert.Spec.pertAt Cert.Spec.rowNorm
  simp only [h2 l _ h hh]

/-- The perturbation array as the specification states it, of the arrays as the region finds them. -/
abbrev target (c : Dev nD) : Buf (Elt Ideal) ((c : Thread nD τ).loc main_v1) :=
  Cert.Spec.pert (V m c main_v0) (V m c main_arg3) (V m c main_arg2)

/-- What point `t` writes back is slab `t` of the specification's array. -/
theorem flushed_eq (c : Dev nD) (t : Fin cfg0.N) :
    (dats m 0 c).flushed 3 t = ((cfg0.win 3).blk t).view.read (Elt Ideal) (target m c) := by
  obtain ⟨-, -, -, -, -, -, e6, e7, e8⟩ := block_positions t
  show (cfg0.win 3).cut (grid0.coords t) ((dats m 0 c).after 3 t) = _
  rw [after0_3]
  unfold out0_3
  rw [View.canon_unit_zero zero3]
  simp only [View.ld_unit_zero (S := S64x256) zero2, View.ld_unit_zero (S := S256x128) zero2,
    View.ld_unit_zero (S := S128x1024) zero2]
  funext j
  show k0_pay1 (iblk m c 0 t) (iblk m c 1 t) (iblk m c 2 t) ((cfg0.win 3).xinj (grid0.coords t) j)
    = Cert.Spec.pert (V m c main_v0) (V m c main_arg3) (V m c main_arg2) (((cfg0.win 3).blk t).view.emb j)
  refine slab_elt (V m c main_v0) (V m c main_arg3) (V m c main_arg2) (iblk m c 0 t) (iblk m c 1 t) (iblk m c 2 t)
    ((cfg0.win 3).xinj (grid0.coords t) j) (((cfg0.win 3).blk t).view.emb j) t.val ?_ ?_ ?_
    (read_labels m c t) (read_w2 m c t) (read_w1 m c t)
  · show win0_3.index t (0 : Fin 3) * 64 + 1 * (j 0).val = (j 0).val; omega
  · show win0_3.index t (1 : Fin 3) * 256 + 1 * (j 1).val = (j 1).val; omega
  · show win0_3.index t (2 : Fin 3) * 128 + 1 * (j 2).val = t.val * 128 + (j 2).val; omega

/-- An index of the array is in point `t`'s slab iff each coordinate is in the slab's range on its axis. -/
theorem mem_slab (t : Fin cfg0.N) (i : S64x256x4096.Idx) :
    i ∈ ((cfg0.win 3).blk t).view.set ↔ ∀ a : Fin 3, win0_3.index t a * S64x256x128.size a ≤ (i a).val
      ∧ (i a).val < win0_3.index t a * S64x256x128.size a + S64x256x128.size a := by
  show i ∈ ((View.whole main_v1).slice (win0_3.rect t)).set ↔ _
  rw [View.set_slice_whole, Rect.mem_set_unit]
  exact Iff.rfl

/-- Every index of the array lies in the slab of the point `i 2 / 128`, and every point writes back. -/
theorem covered (i : S64x256x4096.Idx) :
    ∃ t : Fin cfg0.N, (cfg0.win 3).flush t = true ∧ i ∈ ((cfg0.win 3).blk t).view.set := by
  have hN : cfg0.N = 32 := N_0
  have hi0 : (i 0).val < 64 := (i 0).isLt
  have hi1 : (i 1).val < 256 := (i 1).isLt
  have hi2 : (i 2).val < 4096 := (i 2).isLt
  obtain ⟨t, ht⟩ : ∃ t : Fin cfg0.N, t.val = (i 2).val / 128 := ⟨⟨(i 2).val / 128, by rw [hN]; omega⟩, rfl⟩
  obtain ⟨-, -, -, -, -, -, e6, e7, e8⟩ := block_positions t
  refine ⟨t, flush0_3 t, ?_⟩
  rw [mem_slab]
  intro a
  match a with
  | ⟨0, _⟩ =>
    show win0_3.index t (0 : Fin 3) * 64 ≤ (i 0).val ∧ (i 0).val < win0_3.index t (0 : Fin 3) * 64 + 64
    omega
  | ⟨1, _⟩ =>
    show win0_3.index t (1 : Fin 3) * 256 ≤ (i 1).val ∧ (i 1).val < win0_3.index t (1 : Fin 3) * 256 + 256
    omega
  | ⟨2, _⟩ =>
    show win0_3.index t (2 : Fin 3) * 128 ≤ (i 2).val ∧ (i 2).val < win0_3.index t (2 : Fin 3) * 128 + 128
    omega

/-- The array after the run is the specification's, of the arrays as the region finds them. -/
theorem final_target (c : Dev nD) : (dats m 0 c).arrAt 3 cfg0.N = target m c :=
  (dats m 0 c).arrAt_eq_of_cover 3 (target m c) (fun t _ => flushed_eq m c t) covered

/-- The region finds the labels converted to floats: the one host operation before it. -/
theorem V_labels (c : Dev nD) :
    (V m c main_v0 : S64x256.Idx → EReal) = (sitofp .f32 (m ((c : Thread nD τ).loc main_arg1)) : FVec Ideal S64x256 .f32) := by
  show StableHlo.after hostOps0 (fun b => m (c, b)) (Proc.devRef .tc main_v0) = _
  after_results

/-- The array after the run, of the arrays as launched. -/
theorem final_pert (c : Dev nD) : (dats m 0 c).arrAt 3 cfg0.N
    = Cert.Spec.pert (sitofp .f32 (m ((c : Thread nD τ).loc main_arg1)) : FVec Ideal S64x256 .f32)
        (m ((c : Thread nD τ).loc main_arg3)) (m ((c : Thread nD τ).loc main_arg2)) := by
  rw [final_target]
  show Cert.Spec.pert (V m c main_v0) (V m c main_arg3) (V m c main_arg2) = _
  rw [V_labels, V_main_arg3, V_main_arg2]

end Cert.KernelIdeal.BlockValue

end
-- ==== Proof.Tail.lean ====
/-
  The network output: the host lines after the region, read at an index.

  After the region, the program scales `W2` by the literal `4096.0`, sums each row starting from the zero literal, adds
  the bias, and copies the resulting length-256 row to each of the 64 batch rows. `W2` is an input array of the region,
  which no grid point writes, and the bias is not staged by the region at all, so these lines read both as launched.
  At `(b, o)` the result is `(∑ k, W2 o k · n) + bias2 o`, the specification's network output.
-/
import proofs.«123901_j88433376625403_2_alg».proof.Proof.Gen.KernelIdeal.Frame
import proofs.«123901_j88433376625403_2_alg».proof.Proof.Spec
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.TailValue

open Cert.KernelIdeal Cert.KernelIdeal.Gen

/-- The index the row reduction of `W2 · n` inserts: row `o`, column `k`. -/
theorem lift_col (h : S256x4096.Reduces [1] S256) (o : Fin 256) (k : Fin 4096) : h.lift (ix1 o) k = ix2 o k :=
  funext fun a => Fin.ext (by match a with | ⟨0, _⟩ => rfl | ⟨1, _⟩ => rfl)

/-- The host lines after the region, as one function of `W2` and the bias: scale by the literal `4096.0`, sum each
    row from the zero literal, add the bias, copy the resulting row to all 64 batch rows. -/
def tailFn (x3 : (⟨S256x4096, .f32⟩ : BufTy).Contents (Elt Ideal)) (x5 : (⟨S256, .f32⟩ : BufTy).Contents (Elt Ideal)) :
    (⟨S64x256, .f32⟩ : BufTy).Contents (Elt Ideal) :=
  broadcastInDim S64x256 ![0, 1] bcast_S1x256_S64x256_0_1 (broadcastInDim S1x256 ![1] bcast_S256_S1x256_1
    (addf (Host.reduceAdd (F := Ideal) (mulf x3 (broadcastInDim S256x4096 ![] bcast_S_S256x4096 (constant (F := Ideal) S_ .f32 0x45800000#32)))
      (constant (F := Ideal) S_ .f32 0x00000000#32) reducesTo_S256x4096_S256_d1 h_S_) x5))

/-- Read at `(b, o)`, that function is the specification's network output: the two broadcasts rename coordinates, the
    row sum is zero plus the sum over the row, and the scaled element at `(o, k)` is `W2 o k · n`. -/
theorem tailFn_eq (x3 : (⟨S256x4096, .f32⟩ : BufTy).Contents (Elt Ideal)) (x5 : (⟨S256, .f32⟩ : BufTy).Contents (Elt Ideal)) :
    tailFn x3 x5 = Cert.Spec.out x3 x5 := by
  funext i
  obtain ⟨b, o, rfl⟩ : ∃ (b : Fin 64) (o : Fin 256), i = ix2 b o := ⟨i 0, i 1, eq_ix2 i⟩
  unfold tailFn
  refine (broadcastInDim_apply _ bcast_S1x256_S64x256_0_1 _ (ix2 b o) (ix2 (0 : Fin 1) o) (fun a => ?_)).trans ?_
  · match a with
    | ⟨0, _⟩ => show 0 = if (1 : Nat) = 1 then 0 else b.val; rw [if_pos rfl]
    | ⟨1, _⟩ => show o.val = if (256 : Nat) = 1 then 0 else o.val; rw [if_neg (by decide)]
  refine (broadcastInDim_apply _ bcast_S256_S1x256_1 _ (ix2 (0 : Fin 1) o) (ix1 o) (fun a => ?_)).trans ?_
  · match a with
    | ⟨0, _⟩ => show o.val = if (256 : Nat) = 1 then 0 else o.val; rw [if_neg (by decide)]
  rw [Cert.Spec.out_ix2]
  unfold Cert.Spec.outAt
  refine (addf_apply _ _ _).trans ?_
  refine congrArg (· + x5 (ix1 o)) ?_
  refine (Ideal.hostReduceAdd_single reducesTo_S256x4096_S256_d1 (by decide : S256x4096.Reduces [1] S256) _ _ (ix1 o)).trans ?_
  refine (congrArg₂ (· + ·) Ideal.ofBits_zero_f32 (Finset.sum_congr rfl fun k _ => ?_)).trans (zero_add _)
  exact congrArg (fun j => x3 j * Ideal.ofBits .f32 0x45800000#32) (lift_col _ o k)

variable (m : (ℓ : Loc nD τ sig) → Buf (Elt Ideal) ℓ)

/-- The lines after the region read `W2` as launched: it is an input array of the region, which no point writes. -/
theorem tail_w2 (c : Dev nD) :
    Pipeline.withArrays spec0 c (V0 m c) (fun w => (dats m 0 c).arrAt w cfg0.N) (Proc.devRef .tc main_arg3)
      = m ((c : Thread nD τ).loc main_arg3) :=
  (Pipeline.withArrays_arr spec0 launch0.win.arr_inj c (V0 m c) _ 1).trans
    (((dats m 0 c).arrAt_in 1 rfl _).trans ((A_eq m c 1).trans (V_main_arg3 m c)))

/-- They read the bias as launched: the region does not stage it. -/
theorem tail_bias (c : Dev nD) :
    Pipeline.withArrays spec0 c (V0 m c) (fun w => (dats m 0 c).arrAt w cfg0.N) (Proc.devRef .tc main_arg5)
      = m ((c : Thread nD τ).loc main_arg5) :=
  (Pipeline.withArrays_of_ne spec0 c (V0 m c) _ main_arg5 (by decide : ∀ w, Pipeline.arrRef spec0 w ≠ main_arg5)).trans
    (V_main_arg5 m c)

/-- The program's first result after the run is the specification's network output. -/
theorem tail_value (c : Dev nD) :
    Pipeline.afterTail₀ cfgs (dats m) 0 (V0 m) [hostOps1] c main_v7
      = Cert.Spec.out (m ((c : Thread nD τ).loc main_arg3)) (m ((c : Thread nD τ).loc main_arg5)) := by
  unfold Pipeline.afterTail₀
  show StableHlo.after hostOps1 _ (Proc.devRef .tc main_v7) = _
  after_results
  exact (congrArg₂ tailFn (tail_w2 m c) (tail_bias m c)).trans (tailFn_eq _ _)

end Cert.KernelIdeal.TailValue

end
-- ==== Proof.KernelRun.lean ====
/-
  The idealized kernel's run with both results named.

  Every weakly fair execution terminates without a fault; afterwards the region's output array holds the specification's
  perturbation (the 32 written-back slabs tile it), the last host line's buffer holds the specification's network output,
  and the six argument arrays are as launched (inputs of the region are never written, the others are not staged).
-/
import proofs.«123901_j88433376625403_2_alg».proof.Proof.Blocks
import proofs.«123901_j88433376625403_2_alg».proof.Proof.Tail

noncomputable section

open Idealize.ShloMosaic Idealize.ShloMosaic.TcCoe Idealize.SL.Sem
open Idealize.ShloMosaic.Pipeline (Dat)

namespace Cert.KernelIdeal.RunValue

open Cert.KernelIdeal Cert.KernelIdeal.Gen

variable (m : (ℓ : Loc nD τ sig) → Buf (Elt Ideal) ℓ) (ρ : Dev nD → PrngReg)

/-- The run, read: the two results at the specification's arrays of the arguments, the arguments unchanged. -/
theorem run : θ_run defs (onTc (τ := τ) (main (F := Ideal))) ⟨m, fun _ => 0, ρ⟩ fun r => ∀ c : Dev nD,
      r.2.mem ((c.tc : Thread nD τ).loc main_v7)
        = Cert.Spec.out (m ((c.tc : Thread nD τ).loc main_arg3)) (m ((c.tc : Thread nD τ).loc main_arg5))
      ∧ r.2.mem ((c.tc : Thread nD τ).loc main_v1)
        = Cert.Spec.pert (sitofp .f32 (m ((c.tc : Thread nD τ).loc main_arg1)) : FVec Ideal S64x256 .f32)
            (m ((c.tc : Thread nD τ).loc main_arg3)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v7 (Pipeline.mem_restRefs_of main_v7 (by decide) (by decide))).trans (TailValue.tail_value m c),
      ((h c).1 3).trans (BlockValue.final_pert m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.RunValue

end
-- ==== Proof.lean ====
/-
  Equivalence of the perturbation kernel and its reference on the extended reals.

  Both programs return a network output `out[b, o] = (∑ h, W2[o, h] · 4096) + bias2[o]` (the same for every `b`) and
  a perturbation `pert[b, o, h]` built from the literal `c = -0.1`, the labels `y` converted to floats, the sign
  of `W2[o, h]` and the L1 norm `‖W1[h, :]‖₁`. The kernel computes `(c · y[b, o]) · (sign(W2[o, h]) · ‖W1[h, :]‖₁)`
  slab by slab over 32 grid points and the network output on the host after the region; the reference computes
  `((c · y[b, o]) · sign(W2[o, h])) · ‖W1[h, :]‖₁` and broadcasts `W2 · 4096` over the batch before summing. The
  two perturbations agree because multiplication of extended reals is associative, the two network outputs
  because a broadcast changes no element of a row; neither step needs the inputs to be finite, so the precondition is
  not used. The kernel's `sign`, written with two selects, and the host's `sign` are both the sign function of the
  extended reals, and both row sums are the same finite sums.

  `Spec` states the two arrays; `RefSide` reads the reference's results as them; `PayAt`, `Blocks`, `Tail` and
  `KernelRun` read the kernel's.
-/
import proofs.«123901_j88433376625403_2_alg».proof.Defs
import proofs.«123901_j88433376625403_2_alg».proof.Proof.Gen.Kernel
import proofs.«123901_j88433376625403_2_alg».proof.Proof.Gen.Kernel.Frame
import proofs.«123901_j88433376625403_2_alg».proof.Proof.Gen.KernelIdeal
import proofs.«123901_j88433376625403_2_alg».proof.Proof.Gen.KernelIdeal.Frame
import proofs.«123901_j88433376625403_2_alg».proof.Proof.Gen.ReferenceIdeal
import proofs.«123901_j88433376625403_2_alg».proof.Proof.Gen.ReferenceIdeal.Run
import proofs.«123901_j88433376625403_2_alg».proof.Proof.Gen.ReferenceIdeal.Read
import proofs.«123901_j88433376625403_2_alg».proof.Proof.Gen.Pre_finite_inputs
import proofs.«123901_j88433376625403_2_alg».proof.Proof.RefSide
import proofs.«123901_j88433376625403_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The one rewrite of the idealization: `1.0` carrying the sign bit of `w` is `-1` where `w < 0` and `1`
    elsewhere. -/
theorem preserves : Cert.preserves_Kernel_KernelIdeal := IdealRules.sign_bit.statement Cert.KernelIdeal.S256x128 .f32

/-- From memories agreeing on the arguments both programs end with the specification's two arrays. -/
theorem algebraic : Cert.algebraic_KernelIdeal_ReferenceIdeal := by
  intro m ρ m' ρ' _ hagree
  refine ⟨_, _, Cert.KernelIdeal.RunValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v21_eq, Cert.ReferenceIdeal.RefValue.out_eq,
      (hagree c).2.2.2.1, (hagree c).2.2.2.2.2]
  · rw [(h c).2.1, Cert.ReferenceIdeal.Read.val_main_v13_eq, Cert.ReferenceIdeal.RefValue.pert_eq,
      (hagree c).2.1, (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
